-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg17 : FVec F S128x128 .f32) (main_arg18 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg17 main_arg18 main_v48 main_v49 main_v50

def fn_part1 {F : FTy → Type} [FloatOps F] (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_v33

def fn {F : FTy → Type} [FloatOps F] (main_arg0 : FVec F S100000x128 .f32) (main_arg1 : IVec S1600000 32) (main_arg2 : IVec S1600000 32) (main_arg3 : FVec F S1600000 .f32) (main_arg4 : IVec S1600000 32) (main_arg5 : IVec S1600000 32) (main_arg6 : FVec F S1600000 .f32) (main_arg7 : IVec S1600000 32) (main_arg8 : IVec S1600000 32) (main_arg9 : FVec F S1600000 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg6
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S1600000 .f32 := Host.absf main_arg9
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg10 main_arg11 main_arg12 main_arg13 main_arg14 main_arg15 main_arg16 main_arg17 main_arg18 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩

abbrev nBuf : Space → Nat
  | .hbm => 107
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S1600000, .f32⟩
  | .hbm, ⟨7, _⟩ => ⟨S1600000, .i32⟩
  | .hbm, ⟨8, _⟩ => ⟨S1600000, .i32⟩
  | .hbm, ⟨9, _⟩ => ⟨S1600000, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1600000x1, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S1600000x1, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S_, .f32⟩
  | .hbm, ⟨92, _⟩ => ⟨S1600000, .f32⟩
  | .hbm, ⟨93, _⟩ => ⟨S_, .f32⟩
  | .hbm, ⟨94, _⟩ => ⟨S100000, .f32⟩
  | .hbm, ⟨95, _⟩ => ⟨S1600000x1, .i32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_cst_8 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_9 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_10 : Ref sig .tc := ⟨.hbm, 75, rfl⟩
abbrev main_v44 : Ref sig .tc := ⟨.hbm, 76, rfl⟩
abbrev main_v45 : Ref sig .tc := ⟨.hbm, 77, rfl⟩
abbrev main_c_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_12 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_15 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S100000x128.size a
  hwx0_13 : ∀ i : grid0.Coords, EltTy.bits .f32 = 32 ∨ (Rect.block (s := S100000x128) S2000x128.size (cc0_transform_13 i) (hinb0_13 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v66) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v67) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg16) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg17) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v68) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v69) S2000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S1600000, .i32⟩
  | 5 => ⟨S1600000, .i32⟩
  | 6 => ⟨S1600000, .f32⟩
  | 7 => ⟨S1600000, .i32⟩
  | 8 => ⟨S1600000, .i32⟩
  | 9 => ⟨S1600000, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S1600000x1, .f32⟩
  | 29 => ⟨S1600000x128, .f32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S_, .f32⟩
  | 36 => ⟨S1600000, .f32⟩
  | 37 => ⟨S_, .f32⟩
  | 38 => ⟨S100000, .f32⟩
  | 39 => ⟨S1600000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x128, .f32⟩
  | 46 => ⟨S100000x128, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S1600000x1, .f32⟩
  | 66 => ⟨S1600000x128, .f32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S100000x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S1600000x1, .f32⟩
  | 103 => ⟨S1600000x128, .f32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S_, .f32⟩
  | 110 => ⟨S1600000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S_, .f32⟩
  | 5 => ⟨S100000x128, .f32⟩
  | 6 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call0_cst : Ref sig .tc := ⟨.hbm, 53, rfl⟩
abbrev main_call0_v0 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_9 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call1_cst : Ref sig .tc := ⟨.hbm, 90, rfl⟩
abbrev main_call1_v0 : Ref sig .tc := ⟨.hbm, 91, rfl⟩
abbrev main_v57 : Ref sig .tc := ⟨.hbm, 92, rfl⟩
abbrev main_c_10 : Ref sig .tc := ⟨.hbm, 93, rfl⟩
abbrev main_v58 : Ref sig .tc := ⟨.hbm, 94, rfl⟩
abbrev main_v59 : Ref sig .tc := ⟨.hbm, 95, rfl⟩
abbrev main_c_11 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_13 : Ref sig .tc := ⟨.hbm, 109, rfl⟩
abbrev main_v71 : Ref sig .tc := ⟨.hbm, 110, rfl⟩
abbrev main_cst_14 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_15 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call2_cst : Ref sig .tc := ⟨.hbm, 127, rfl⟩
abbrev main_call2_v0 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_16 : Ref sig .tc := ⟨.hbm, 132, rfl⟩
abbrev main_v89 : Ref sig .tc := ⟨.hbm, 133, rfl⟩
abbrev main_v90 : Ref sig .tc := ⟨.hbm, 134, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibDenseBlock.lean ====
/-
  A fused dense layer on a block of rows, read at an entry, on the extended reals.

  The block computes  A · WL + X · WR + b  (and, for a rectified layer, the maximum of that with zero): the two
  matrix products are accumulated into zero matrices from operands first rounded to a narrower float format — at the
  ideal values the rounding is the identity —, they are added, and a one-row matrix `b` is repeated down the rows and
  added.  Entry (p, q) is

      (∑ k, A[p, k] · WL[k, q]  +  ∑ k, X[p, k] · WR[k, q])  +  b[0, q].

  All extents are variables.
-/
import proofs.«151795_j57432302682299_1_alg».proof.Proof.LibLayout

noncomputable section

namespace Cert.LibDenseBlock

open Idealize.ShloMosaic Idealize.ShloMosaic.ValueIdx

/-- Entry (p, q) of  A · WL + X · WR + b : the two contractions over the shared inner extent, then the bias of
    column q. -/
def affine {n d e : ℕ} (A X : FVec Ideal ⟨2, ![n, d]⟩ .f32) (WL WR : FVec Ideal ⟨2, ![d, e]⟩ .f32)
    (b : Fin e → Ideal .f32) (p : Fin n) (q : Fin e) : Ideal .f32 :=
  (∑ k : Fin d, A (ix2 p k) * WL (ix2 k q) + ∑ k : Fin d, X (ix2 p k) * WR (ix2 k q)) + b q

/-- The block's arithmetic as the vector unit spells it — operands rounded to a narrower format, two products into
    zero accumulators, their sum, a one-row bias repeated down the rows and added — is `affine` at every entry.
    The dimension record's own facts (one contracted axis of extent `d`, rows against columns) are hypotheses, closed
    at a literal record by `rfl`. -/
theorem block_affine_apply {r d e : ℕ} {ψ : FTy} (D : DotDims ⟨2, ![r, d]⟩ ⟨2, ![d, e]⟩ ⟨2, ![r, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (hψ : ψ.bits < FTy.f32.bits)
    (a x : FVec Ideal ⟨2, ![r, d]⟩ .f32) (wl wr : FVec Ideal ⟨2, ![d, e]⟩ .f32) (b : FVec Ideal ⟨2, ![1, e]⟩ .f32)
    (hb : (⟨2, ![1, e]⟩ : Shape).Broadcasts ⟨2, ![r, e]⟩) (p : Fin r) (q : Fin e) :
    addf (addf (matmul D none (truncf ψ a hψ) (truncf ψ wl hψ) (constant ⟨2, ![r, e]⟩ .f32 0x00000000#32))
          (matmul D none (truncf ψ x hψ) (truncf ψ wr hψ) (constant ⟨2, ![r, e]⟩ .f32 0x00000000#32)))
        (broadcastTo ⟨2, ![r, e]⟩ b hb) (ix2 p q)
      = affine a x wl wr (fun q => b (ix2 (0 : Fin 1) q)) p q := by
  rw [addf_apply, addf_apply,
    Cert.LibLayout.matmul_rows_cols_apply D hr hs hlc hrc hl0 hr1 none (truncf ψ a hψ) (truncf ψ wl hψ) p q,
    Cert.LibLayout.matmul_rows_cols_apply D hr hs hlc hrc hl0 hr1 none (truncf ψ x hψ) (truncf ψ wr hψ) p q,
    broadcastTo_1b_ab_apply b hb p q]
  rfl

end Cert.LibDenseBlock

end
-- ==== Proof.BlockValue.lean ====
/-
  What one block of rows holds after the body, entry by entry, on the extended reals.

  The body works on 2000 rows of the node features at a time.  For each of the three relations it forms

      max( x_blk · Ws + h_blk · Wn + b , 0 )

  from the block's own features, the block's aggregated neighbour features, the two weight matrices and the bias
  row (the operands of the two products are first rounded to a narrower float format, which at the ideal values
  changes nothing), adds the three and multiplies by the constant named one third.  Entry (p, q) of the result is
  the sum of the three rectified dense-layer entries, times 1/3.
-/
import proofs.«151795_j57432302682299_1_alg».proof.Proof.Gen.KernelIdeal.Skeleton
import proofs.«151795_j57432302682299_1_alg».proof.Proof.LibDenseBlock
import Idealize.ShloMosaic.PureOps.IdealRules
import Idealize.ShloMosaic.PureOps.Ideal.Laws
import Idealize.ShloMosaic.Lib.Pipeline.Value

noncomputable section

namespace Cert.RelationMean.Block

open Idealize.ShloMosaic Idealize.ShloMosaic.ValueIdx Cert.KernelIdeal Cert.KernelIdeal.Gen Cert.LibDenseBlock

/-- In the block's matrix products the left operand is read at the result's row. -/
theorem dims_lhs_row (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … and the right operand at the result's column. -/
theorem dims_rhs_col (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- One relation's rectified dense layer on the block, at entry (p, q): the maximum with zero of
    (sum_k a[p,k]·wl[k,q] + sum_k x[p,k]·wr[k,q]) + b[0,q]. -/
theorem relu_block (hψ : FTy.bits .bf16 < FTy.bits .f32) (hb : S1x128.Broadcasts S2000x128)
    (a x : FVec Ideal S2000x128 .f32) (wl wr : FVec Ideal S128x128 .f32) (b : FVec Ideal S1x128 .f32)
    (p : Fin 2000) (q : Fin 128) :
    maximumf (addf (addf (matmul dot_S2000x128_S128x128_S2000x128_1_0_0_1_n_n none (truncf .bf16 a hψ) (truncf .bf16 wl hψ) (constant S2000x128 .f32 0x00000000#32))
          (matmul dot_S2000x128_S128x128_S2000x128_1_0_0_1_n_n none (truncf .bf16 x hψ) (truncf .bf16 wr hψ) (constant S2000x128 .f32 0x00000000#32)))
        (broadcastTo S2000x128 b hb)) (broadcast S2000x128 (Scalar.ofBits .f32 0x00000000#32)) (ix2 p q)
      = max (affine a x wl wr (fun q => b (ix2 (0 : Fin 1) q)) p q) 0 := by
  refine (maximumf_apply _ _ _).trans ?_
  refine congrArg₂ max ?_ ?_
  · exact block_affine_apply dot_S2000x128_S128x128_S2000x128_1_0_0_1_n_n rfl rfl rfl rfl dims_lhs_row dims_rhs_col hψ a x wl wr b hb p q
  · exact Ideal.ofBits_zero_f32

/-- The constant the body multiplies by is named one third, and denotes exactly 1/3. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- The body's stored value at entry (p, q) of the block, from the thirteen blocks it loads (x; the three neighbour
    aggregates; and per relation the two weight matrices and the bias row): the three rectified layers added, left
    to right, times one third. -/
theorem payload_apply (x0 x1 x2 x3 : Vec Ideal S2000x128 .f32) (x4 x5 : Vec Ideal S128x128 .f32) (x6 : Vec Ideal S1x128 .f32)
    (x7 x8 : Vec Ideal S128x128 .f32) (x9 : Vec Ideal S1x128 .f32) (x10 x11 : Vec Ideal S128x128 .f32) (x12 : Vec Ideal S1x128 .f32)
    (p : Fin 2000) (q : Fin 128) :
    k0_pay1 (k0_pay2 x0) (k0_pay3 x2) (k0_pay4 x3) (k0_pay5 x7) (k0_pay6 x8) (k0_pay7 x10) (k0_pay8 x11) (k0_pay9 x6)
        (k0_pay10 x9) (k0_pay11 x12) (k0_pay12 x0 x4) (k0_pay13 x1 x5) (ix2 p q)
      = ((max (affine x0 x1 x4 x5 (fun q => x6 (ix2 (0 : Fin 1) q)) p q) 0
          + max (affine x0 x2 x7 x8 (fun q => x9 (ix2 (0 : Fin 1) q)) p q) 0)
          + max (affine x0 x3 x10 x11 (fun q => x12 (ix2 (0 : Fin 1) q)) p q) 0) * ((1 / 3 : ℝ) : EReal) := by
  unfold k0_pay1 k0_pay2 k0_pay3 k0_pay4 k0_pay5 k0_pay6 k0_pay7 k0_pay8 k0_pay9 k0_pay10 k0_pay11 k0_pay12 k0_pay13
  simp only [shapeCast_self]
  refine (mulf_apply _ _ _).trans ?_
  refine congrArg₂ (· * ·) ?_ inv_3
  refine (addf_apply _ _ _).trans ?_
  refine congrArg₂ (· + ·) ?_ (relu_block _ _ x0 x3 x10 x11 x12 p q)
  refine (addf_apply _ _ _).trans ?_
  exact congrArg₂ (· + ·) (relu_block _ _ x0 x1 x4 x5 x6 p q) (relu_block _ _ x0 x2 x7 x8 x9 p q)

end Cert.RelationMean.Block

end
-- ==== Proof.RelationMean.lean ====
/-
  The mean of three rectified dense layers over the nodes of a graph, entry by entry, on the extended reals.

  Each relation r of the graph contributes one layer: node p's own features x[p, :] go through a matrix Ws_r, the
  node's aggregated neighbour features h_r[p, :] through a matrix Wn_r, a bias b_r is added and the result is
  rectified,

      layer_r[p, q] = max( (sum_k x[p, k] * Ws_r[k, q]  +  sum_k h_r[p, k] * Wn_r[k, q])  +  b_r[q] , 0 ),

  and the three layers are averaged:  out[p, q] = ((layer_0 + layer_1) + layer_2)[p, q] * (1/3).

  How the neighbour features h_r were aggregated is of no concern here: they are arguments.
-/
import Idealize.ShloMosaic.PureOps.Ideal
import Idealize.ShloMosaic.Lib.ValueIdx

noncomputable section

namespace Cert.RelationMean

open Idealize.ShloMosaic Idealize.ShloMosaic.ValueIdx

/-- A feature matrix over the graph's nodes: 100000 nodes, 128 features each. -/
abbrev Nodes : Shape := ⟨2, ![100000, 128]⟩
/-- A layer's weight matrix: 128 input features by 128 output features. -/
abbrev Weights : Shape := ⟨2, ![128, 128]⟩
/-- A layer's bias: one number per output feature. -/
abbrev Bias : Shape := ⟨1, ![128]⟩

/-- A bias laid out as one row. -/
abbrev BiasRow : Shape := ⟨2, ![1, 128]⟩

/-- A bias row read back as a vector: entry q of the vector is entry (0, q) of the row. -/
def rowOf (r : FVec Ideal BiasRow .f32) : FVec Ideal Bias .f32 := fun j => r (ix2 (0 : Fin 1) (j 0))

/-- Entry (p, q) of one relation's layer: the node's own features through `ws`, its neighbour features through `wn`,
    the bias of output feature q, rectified. -/
def layer (x h : FVec Ideal Nodes .f32) (ws wn : FVec Ideal Weights .f32) (b : FVec Ideal Bias .f32)
    (p : Fin 100000) (q : Fin 128) : EReal :=
  max ((∑ k : Fin 128, x (ix2 p k) * ws (ix2 k q) + ∑ k : Fin 128, h (ix2 p k) * wn (ix2 k q)) + b (ix1 q)) 0

/-- The three relations' layers averaged: at every entry their sum, in this order, times one third. -/
def mean3 (x h0 h1 h2 : FVec Ideal Nodes .f32)
    (ws0 wn0 : FVec Ideal Weights .f32) (b0 : FVec Ideal Bias .f32)
    (ws1 wn1 : FVec Ideal Weights .f32) (b1 : FVec Ideal Bias .f32)
    (ws2 wn2 : FVec Ideal Weights .f32) (b2 : FVec Ideal Bias .f32) : FVec Ideal Nodes .f32 := fun i =>
  ((layer x h0 ws0 wn0 b0 (i 0) (i 1) + layer x h1 ws1 wn1 b1 (i 0) (i 1)) + layer x h2 ws2 wn2 b2 (i 0) (i 1))
    * ((1 / 3 : ℝ) : EReal)

/-- The mean at entry (p, q), spelt out. -/
theorem mean3_apply (x h0 h1 h2 : FVec Ideal Nodes .f32)
    (ws0 wn0 : FVec Ideal Weights .f32) (b0 : FVec Ideal Bias .f32)
    (ws1 wn1 : FVec Ideal Weights .f32) (b1 : FVec Ideal Bias .f32)
    (ws2 wn2 : FVec Ideal Weights .f32) (b2 : FVec Ideal Bias .f32) (p : Fin 100000) (q : Fin 128) :
    mean3 x h0 h1 h2 ws0 wn0 b0 ws1 wn1 b1 ws2 wn2 b2 (ix2 p q)
      = ((layer x h0 ws0 wn0 b0 p q + layer x h1 ws1 wn1 b1 p q) + layer x h2 ws2 wn2 b2 p q) * ((1 / 3 : ℝ) : EReal) := rfl

/-- Dividing by three is multiplying by one third, on every extended real (the infinities too). -/
theorem div_three (y : EReal) : Ideal.div y ((3 : ℝ) : EReal) = y * ((1 / 3 : ℝ) : EReal) :=
  Ideal.div_coe (by norm_num) y

end Cert.RelationMean

end
-- ==== Proof.BlockMean.lean ====
/-
  One block of rows against the whole arrays.

  The body's value on a block of 2000 rows is built from the block's rows of the node features and of the three
  neighbour aggregates, and from weight matrices and bias rows that are whole arrays.  If the block's row p is row P of
  the arrays, entry (p, q) of the block's value is entry (P, q) of the array-wide mean of the three rectified layers:
  every sum runs over the same 128 products, and the bias entry is the same.
-/
import proofs.«151795_j57432302682299_1_alg».proof.Proof.BlockValue
import proofs.«151795_j57432302682299_1_alg».proof.Proof.RelationMean

noncomputable section

namespace Cert.RelationMean.Rows

open Cert.KernelIdeal Cert.KernelIdeal.Gen Idealize.ShloMosaic
open Idealize.ShloMosaic.ValueIdx Cert.RelationMean Cert.LibDenseBlock

/-! ## One block, over any arrays -/

/-- One relation's layer on a block agrees with the array-wide layer, when row p of the block's two row operands is
    row P of the arrays and the block's weights and bias row are the arrays' own. -/
theorem layer_of_block (X H : FVec Ideal Nodes .f32) (WS WN : FVec Ideal Weights .f32) (B : FVec Ideal BiasRow .f32)
    (a x : Vec Ideal S2000x128 .f32) (wl wr : Vec Ideal S128x128 .f32) (b : Vec Ideal S1x128 .f32)
    (p : Fin 2000) (P : Fin 100000) (q : Fin 128)
    (ha : ∀ k : Fin 128, a (ix2 p k) = X (ix2 P k)) (hx : ∀ k : Fin 128, x (ix2 p k) = H (ix2 P k))
    (hwl : ∀ k : Fin 128, wl (ix2 k q) = WS (ix2 k q)) (hwr : ∀ k : Fin 128, wr (ix2 k q) = WN (ix2 k q))
    (hb : b (ix2 (0 : Fin 1) q) = B (ix2 (0 : Fin 1) q)) :
    max (affine a x wl wr (fun q => b (ix2 (0 : Fin 1) q)) p q) 0 = layer X H WS WN (rowOf B) P q :=
  congrArg₂ (max : EReal → EReal → EReal)
    (congrArg₂ (fun s t : EReal => s + t)
      (congrArg₂ (fun s t : EReal => s + t)
        (Finset.sum_congr rfl fun k _ => congrArg₂ (fun s t : EReal => s * t) (ha k) (hwl k))
        (Finset.sum_congr rfl fun k _ => congrArg₂ (fun s t : EReal => s * t) (hx k) (hwr k)))
      hb)
    rfl

/-- The body's stored value on block T, at a block index y, is the array-wide mean at the array index i that y names
    (row 2000 T + y's row, y's column) — for any arrays whose rows 2000 T … are the block's row operands and whose
    weights and bias rows are the block's. -/
theorem block_eq (X H0 H1 H2 : FVec Ideal Nodes .f32) (WS0 WN0 WS1 WN1 WS2 WN2 : FVec Ideal Weights .f32)
    (B0 B1 B2 : FVec Ideal BiasRow .f32)
    (x0 x1 x2 x3 : Vec Ideal S2000x128 .f32) (x4 x5 : Vec Ideal S128x128 .f32) (x6 : Vec Ideal S1x128 .f32)
    (x7 x8 : Vec Ideal S128x128 .f32) (x9 : Vec Ideal S1x128 .f32) (x10 x11 : Vec Ideal S128x128 .f32) (x12 : Vec Ideal S1x128 .f32)
    (T : ℕ) (y : S2000x128.Idx) (i : Nodes.Idx)
    (hi0 : (i 0).val = T * 2000 + (y 0).val) (hi1 : (i 1).val = (y 1).val)
    (h0 : ∀ (u : S2000x128.Idx) (v : Nodes.Idx), (v 0).val = T * 2000 + (u 0).val → (v 1).val = (u 1).val → x0 u = X v)
    (h1 : ∀ (u : S2000x128.Idx) (v : Nodes.Idx), (v 0).val = T * 2000 + (u 0).val → (v 1).val = (u 1).val → x1 u = H0 v)
    (h2 : ∀ (u : S2000x128.Idx) (v : Nodes.Idx), (v 0).val = T * 2000 + (u 0).val → (v 1).val = (u 1).val → x2 u = H1 v)
    (h3 : ∀ (u : S2000x128.Idx) (v : Nodes.Idx), (v 0).val = T * 2000 + (u 0).val → (v 1).val = (u 1).val → x3 u = H2 v)
    (h4 : ∀ u : S128x128.Idx, x4 u = WS0 u) (h5 : ∀ u : S128x128.Idx, x5 u = WN0 u) (h6 : ∀ u : S1x128.Idx, x6 u = B0 u)
    (h7 : ∀ u : S128x128.Idx, x7 u = WS1 u) (h8 : ∀ u : S128x128.Idx, x8 u = WN1 u) (h9 : ∀ u : S1x128.Idx, x9 u = B1 u)
    (h10 : ∀ u : S128x128.Idx, x10 u = WS2 u) (h11 : ∀ u : S128x128.Idx, x11 u = WN2 u) (h12 : ∀ u : S1x128.Idx, x12 u = B2 u) :
    k0_pay1 (k0_pay2 x0) (k0_pay3 x2) (k0_pay4 x3) (k0_pay5 x7) (k0_pay6 x8) (k0_pay7 x10) (k0_pay8 x11) (k0_pay9 x6)
        (k0_pay10 x9) (k0_pay11 x12) (k0_pay12 x0 x4) (k0_pay13 x1 x5) y
      = mean3 X H0 H1 H2 WS0 WN0 (rowOf B0) WS1 WN1 (rowOf B1) WS2 WN2 (rowOf B2) i := by
  obtain ⟨p, q, rfl⟩ : ∃ (p : Fin 2000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  subst hQ
  have hP : P.val = T * 2000 + p.val := hi0
  refine (Block.payload_apply x0 x1 x2 x3 x4 x5 x6 x7 x8 x9 x10 x11 x12 p Q).trans ?_
  refine Eq.trans ?_ (mean3_apply X H0 H1 H2 WS0 WN0 (rowOf B0) WS1 WN1 (rowOf B1) WS2 WN2 (rowOf B2) P Q).symm
  refine congrArg (fun s : EReal => s * ((1 / 3 : ℝ) : EReal)) ?_
  refine congrArg₂ (fun s t : EReal => s + t) (congrArg₂ (fun s t : EReal => s + t) ?_ ?_) ?_
  · exact layer_of_block X H0 WS0 WN0 B0 x0 x1 x4 x5 x6 p P Q
      (fun k => h0 _ _ hP rfl) (fun k => h1 _ _ hP rfl) (fun k => h4 _) (fun k => h5 _) (h6 _)
  · exact layer_of_block X H1 WS1 WN1 B1 x0 x2 x7 x8 x9 p P Q
      (fun k => h0 _ _ hP rfl) (fun k => h2 _ _ hP rfl) (fun k => h7 _) (fun k => h8 _) (h9 _)
  · exact layer_of_block X H2 WS2 WN2 B2 x0 x3 x10 x11 x12 p P Q
      (fun k => h0 _ _ hP rfl) (fun k => h3 _ _ hP rfl) (fun k => h10 _) (fun k => h11 _) (h12 _)

end Cert.RelationMean.Rows

end
-- ==== Proof.BlockIndex.lean ====
/-
  Where each operand's block sits at each of the fifty points of the grid.

  The grid has one axis of fifty points.  At point t the node features, the three neighbour aggregates and the result
  are at block row t (rows 2000 t … 2000 t + 1999) and column block 0; the six weight matrices and the three bias
  rows are one block each, at block (0, 0) at every point.  Each fact is decided by running through the fifty points.
-/
import proofs.«151795_j57432302682299_1_alg».proof.Proof.Gen.KernelIdeal.Launch

set_option Elab.async false

noncomputable section

namespace Cert.RelationMean.Index

open Cert.KernelIdeal Cert.KernelIdeal.Gen Idealize.ShloMosaic

theorem at_row0 : ∀ t : Fin cfg0.N, win0_0.index t (0 : Fin 2) = t.val ∧ win0_0.index t (1 : Fin 2) = 0 :=
  (by decide +kernel : ∀ t : Fin grid0.N, _)
theorem at_row1 : ∀ t : Fin cfg0.N, win0_1.index t (0 : Fin 2) = t.val ∧ win0_1.index t (1 : Fin 2) = 0 :=
  (by decide +kernel : ∀ t : Fin grid0.N, _)
theorem at_row2 : ∀ t : Fin cfg0.N, win0_2.index t (0 : Fin 2) = t.val ∧ win0_2.index t (1 : Fin 2) = 0 :=
  (by decide +kernel : ∀ t : Fin grid0.N, _)
theorem at_row3 : ∀ t : Fin cfg0.N, win0_3.index t (0 : Fin 2) = t.val ∧ win0_3.index t (1 : Fin 2) = 0 :=
  (by decide +kernel : ∀ t : Fin grid0.N, _)
theorem at_row13 : ∀ t : Fin cfg0.N, win0_13.index t (0 : Fin 2) = t.val ∧ win0_13.index t (1 : Fin 2) = 0 :=
  (by decide +kernel : ∀ t : Fin grid0.N, _)
theorem at_origin4 : ∀ t : Fin cfg0.N, win0_4.index t (0 : Fin 2) = 0 ∧ win0_4.index t (1 : Fin 2) = 0 :=
  (by decide +kernel : ∀ t : Fin grid0.N, _)
theorem at_origin5 : ∀ t : Fin cfg0.N, win0_5.index t (0 : Fin 2) = 0 ∧ win0_5.index t (1 : Fin 2) = 0 :=
  (by decide +kernel : ∀ t : Fin grid0.N, _)
theorem at_origin6 : ∀ t : Fin cfg0.N, win0_6.index t (0 : Fin 2) = 0 ∧ win0_6.index t (1 : Fin 2) = 0 :=
  (by decide +kernel : ∀ t : Fin grid0.N, _)
theorem at_origin7 : ∀ t : Fin cfg0.N, win0_7.index t (0 : Fin 2) = 0 ∧ win0_7.index t (1 : Fin 2) = 0 :=
  (by decide +kernel : ∀ t : Fin grid0.N, _)
theorem at_origin8 : ∀ t : Fin cfg0.N, win0_8.index t (0 : Fin 2) = 0 ∧ win0_8.index t (1 : Fin 2) = 0 :=
  (by decide +kernel : ∀ t : Fin grid0.N, _)
theorem at_origin9 : ∀ t : Fin cfg0.N, win0_9.index t (0 : Fin 2) = 0 ∧ win0_9.index t (1 : Fin 2) = 0 :=
  (by decide +kernel : ∀ t : Fin grid0.N, _)
theorem at_origin10 : ∀ t : Fin cfg0.N, win0_10.index t (0 : Fin 2) = 0 ∧ win0_10.index t (1 : Fin 2) = 0 :=
  (by decide +kernel : ∀ t : Fin grid0.N, _)
theorem at_origin11 : ∀ t : Fin cfg0.N, win0_11.index t (0 : Fin 2) = 0 ∧ win0_11.index t (1 : Fin 2) = 0 :=
  (by decide +kernel : ∀ t : Fin grid0.N, _)
theorem at_origin12 : ∀ t : Fin cfg0.N, win0_12.index t (0 : Fin 2) = 0 ∧ win0_12.index t (1 : Fin 2) = 0 :=
  (by decide +kernel : ∀ t : Fin grid0.N, _)

end Cert.RelationMean.Index

end
-- ==== Proof.BlockReads.lean ====
/-
  Each operand's block at a point of the grid, read where it sits in its array.

  At point t the block of the node features and of each neighbour aggregate is rows 2000 t … 2000 t + 1999 of its
  array: its entry (p, k) is the array's entry (2000 t + p, k).  Each weight matrix and each bias row is one block, the
  whole array, at every point.  (A block's coordinate on an axis is the block index times the block's extent plus the
  coordinate inside the block.)  Each fact is first stated for ANY contents of the array, and only then read at the
  contents the region finds.
-/
import proofs.«151795_j57432302682299_1_alg».proof.Proof.Gen.KernelIdeal.Frame
import proofs.«151795_j57432302682299_1_alg».proof.Proof.BlockIndex
import proofs.«151795_j57432302682299_1_alg».proof.Proof.RelationMean
import Idealize.ShloMosaic.Lib.Pipeline.Value

set_option Elab.async false

noncomputable section

namespace Cert.RelationMean.Reads

open Cert.KernelIdeal Cert.KernelIdeal.Gen Idealize.ShloMosaic Idealize.ShloMosaic.TcCoe Idealize.SL.Sem
open Idealize.ShloMosaic.ValueIdx Cert.RelationMean Cert.RelationMean.Index
open Idealize.ShloMosaic.Pipeline (Dat)

/-! ## For any contents -/

/-- Block t of window 0, of any array of node rows: entry u of the block is the array's entry v whenever v is row
    2000 t + u's row, u's column. -/
theorem read_rows0 (c : Dev nD) (t : Fin cfg0.N) (A : FVec Ideal Nodes .f32) (u : S2000x128.Idx) (v : Nodes.Idx)
    (hv0 : (v 0).val = t.val * 2000 + (u 0).val) (hv1 : (v 1).val = (u 1).val) :
    ((cfg0.win 0).blk t).view.read (Elt Ideal) A u = A v := by
  obtain ⟨ea, eb⟩ := at_row0 t
  show A (((cfg0.win 0).blk t).view.emb u) = A v
  refine congrArg A (funext fun a => Fin.ext ?_)
  match a with
  | ⟨0, _⟩ => show win0_0.index t (0 : Fin 2) * 2000 + 1 * (u 0).val = (v 0).val; rw [ea]; omega
  | ⟨1, _⟩ => show win0_0.index t (1 : Fin 2) * 128 + 1 * (u 1).val = (v 1).val; rw [eb]; omega

/-- Block t of window 1, of any array of node rows: entry u of the block is the array's entry v whenever v is row
    2000 t + u's row, u's column. -/
theorem read_rows1 (c : Dev nD) (t : Fin cfg0.N) (A : FVec Ideal Nodes .f32) (u : S2000x128.Idx) (v : Nodes.Idx)
    (hv0 : (v 0).val = t.val * 2000 + (u 0).val) (hv1 : (v 1).val = (u 1).val) :
    ((cfg0.win 1).blk t).view.read (Elt Ideal) A u = A v := by
  obtain ⟨ea, eb⟩ := at_row1 t
  show A (((cfg0.win 1).blk t).view.emb u) = A v
  refine congrArg A (funext fun a => Fin.ext ?_)
  match a with
  | ⟨0, _⟩ => show win0_1.index t (0 : Fin 2) * 2000 + 1 * (u 0).val = (v 0).val; rw [ea]; omega
  | ⟨1, _⟩ => show win0_1.index t (1 : Fin 2) * 128 + 1 * (u 1).val = (v 1).val; rw [eb]; omega

/-- Block t of window 2, of any array of node rows: entry u of the block is the array's entry v whenever v is row
    2000 t + u's row, u's column. -/
theorem read_rows2 (c : Dev nD) (t : Fin cfg0.N) (A : FVec Ideal Nodes .f32) (u : S2000x128.Idx) (v : Nodes.Idx)
    (hv0 : (v 0).val = t.val * 2000 + (u 0).val) (hv1 : (v 1).val = (u 1).val) :
    ((cfg0.win 2).blk t).view.read (Elt Ideal) A u = A v := by
  obtain ⟨ea, eb⟩ := at_row2 t
  show A (((cfg0.win 2).blk t).view.emb u) = A v
  refine congrArg A (funext fun a => Fin.ext ?_)
  match a with
  | ⟨0, _⟩ => show win0_2.index t (0 : Fin 2) * 2000 + 1 * (u 0).val = (v 0).val; rw [ea]; omega
  | ⟨1, _⟩ => show win0_2.index t (1 : Fin 2) * 128 + 1 * (u 1).val = (v 1).val; rw [eb]; omega

/-- Block t of window 3, of any array of node rows: entry u of the block is the array's entry v whenever v is row
    2000 t + u's row, u's column. -/
theorem read_rows3 (c : Dev nD) (t : Fin cfg0.N) (A : FVec Ideal Nodes .f32) (u : S2000x128.Idx) (v : Nodes.Idx)
    (hv0 : (v 0).val = t.val * 2000 + (u 0).val) (hv1 : (v 1).val = (u 1).val) :
    ((cfg0.win 3).blk t).view.read (Elt Ideal) A u = A v := by
  obtain ⟨ea, eb⟩ := at_row3 t
  show A (((cfg0.win 3).blk t).view.emb u) = A v
  refine congrArg A (funext fun a => Fin.ext ?_)
  match a with
  | ⟨0, _⟩ => show win0_3.index t (0 : Fin 2) * 2000 + 1 * (u 0).val = (v 0).val; rw [ea]; omega
  | ⟨1, _⟩ => show win0_3.index t (1 : Fin 2) * 128 + 1 * (u 1).val = (v 1).val; rw [eb]; omega

/-- Window 4's block is the whole array at every point, whatever the array holds. -/
theorem read_whole4 (c : Dev nD) (t : Fin cfg0.N) (A : FVec Ideal Weights .f32) (u : S128x128.Idx) :
    ((cfg0.win 4).blk t).view.read (Elt Ideal) A u = A u := by
  obtain ⟨ea, eb⟩ := at_origin4 t
  show A (((cfg0.win 4).blk t).view.emb u) = A u
  refine congrArg A (funext fun a => Fin.ext ?_)
  match a with
  | ⟨0, _⟩ => show win0_4.index t (0 : Fin 2) * 128 + 1 * (u 0).val = (u 0).val; rw [ea]; omega
  | ⟨1, _⟩ => show win0_4.index t (1 : Fin 2) * 128 + 1 * (u 1).val = (u 1).val; rw [eb]; omega

/-- Window 5's block is the whole array at every point, whatever the array holds. -/
theorem read_whole5 (c : Dev nD) (t : Fin cfg0.N) (A : FVec Ideal Weights .f32) (u : S128x128.Idx) :
    ((cfg0.win 5).blk t).view.read (Elt Ideal) A u = A u := by
  obtain ⟨ea, eb⟩ := at_origin5 t
  show A (((cfg0.win 5).blk t).view.emb u) = A u
  refine congrArg A (funext fun a => Fin.ext ?_)
  match a with
  | ⟨0, _⟩ => show win0_5.index t (0 : Fin 2) * 128 + 1 * (u 0).val = (u 0).val; rw [ea]; omega
  | ⟨1, _⟩ => show win0_5.index t (1 : Fin 2) * 128 + 1 * (u 1).val = (u 1).val; rw [eb]; omega

/-- Window 6's block is the whole array at every point, whatever the array holds. -/
theorem read_whole6 (c : Dev nD) (t : Fin cfg0.N) (A : FVec Ideal BiasRow .f32) (u : S1x128.Idx) :
    ((cfg0.win 6).blk t).view.read (Elt Ideal) A u = A u := by
  obtain ⟨ea, eb⟩ := at_origin6 t
  show A (((cfg0.win 6).blk t).view.emb u) = A u
  refine congrArg A (funext fun a => Fin.ext ?_)
  match a with
  | ⟨0, _⟩ => show win0_6.index t (0 : Fin 2) * 1 + 1 * (u 0).val = (u 0).val; rw [ea]; omega
  | ⟨1, _⟩ => show win0_6.index t (1 : Fin 2) * 128 + 1 * (u 1).val = (u 1).val; rw [eb]; omega

/-- Window 7's block is the whole array at every point, whatever the array holds. -/
theorem read_whole7 (c : Dev nD) (t : Fin cfg0.N) (A : FVec Ideal Weights .f32) (u : S128x128.Idx) :
    ((cfg0.win 7).blk t).view.read (Elt Ideal) A u = A u := by
  obtain ⟨ea, eb⟩ := at_origin7 t
  show A (((cfg0.win 7).blk t).view.emb u) = A u
  refine congrArg A (funext fun a => Fin.ext ?_)
  match a with
  | ⟨0, _⟩ => show win0_7.index t (0 : Fin 2) * 128 + 1 * (u 0).val = (u 0).val; rw [ea]; omega
  | ⟨1, _⟩ => show win0_7.index t (1 : Fin 2) * 128 + 1 * (u 1).val = (u 1).val; rw [eb]; omega

/-- Window 8's block is the whole array at every point, whatever the array holds. -/
theorem read_whole8 (c : Dev nD) (t : Fin cfg0.N) (A : FVec Ideal Weights .f32) (u : S128x128.Idx) :
    ((cfg0.win 8).blk t).view.read (Elt Ideal) A u = A u := by
  obtain ⟨ea, eb⟩ := at_origin8 t
  show A (((cfg0.win 8).blk t).view.emb u) = A u
  refine congrArg A (funext fun a => Fin.ext ?_)
  match a with
  | ⟨0, _⟩ => show win0_8.index t (0 : Fin 2) * 128 + 1 * (u 0).val = (u 0).val; rw [ea]; omega
  | ⟨1, _⟩ => show win0_8.index t (1 : Fin 2) * 128 + 1 * (u 1).val = (u 1).val; rw [eb]; omega

/-- Window 9's block is the whole array at every point, whatever the array holds. -/
theorem read_whole9 (c : Dev nD) (t : Fin cfg0.N) (A : FVec Ideal BiasRow .f32) (u : S1x128.Idx) :
    ((cfg0.win 9).blk t).view.read (Elt Ideal) A u = A u := by
  obtain ⟨ea, eb⟩ := at_origin9 t
  show A (((cfg0.win 9).blk t).view.emb u) = A u
  refine congrArg A (funext fun a => Fin.ext ?_)
  match a with
  | ⟨0, _⟩ => show win0_9.index t (0 : Fin 2) * 1 + 1 * (u 0).val = (u 0).val; rw [ea]; omega
  | ⟨1, _⟩ => show win0_9.index t (1 : Fin 2) * 128 + 1 * (u 1).val = (u 1).val; rw [eb]; omega

/-- Window 10's block is the whole array at every point, whatever the array holds. -/
theorem read_whole10 (c : Dev nD) (t : Fin cfg0.N) (A : FVec Ideal Weights .f32) (u : S128x128.Idx) :
    ((cfg0.win 10).blk t).view.read (Elt Ideal) A u = A u := by
  obtain ⟨ea, eb⟩ := at_origin10 t
  show A (((cfg0.win 10).blk t).view.emb u) = A u
  refine congrArg A (funext fun a => Fin.ext ?_)
  match a with
  | ⟨0, _⟩ => show win0_10.index t (0 : Fin 2) * 128 + 1 * (u 0).val = (u 0).val; rw [ea]; omega
  | ⟨1, _⟩ => show win0_10.index t (1 : Fin 2) * 128 + 1 * (u 1).val = (u 1).val; rw [eb]; omega

/-- Window 11's block is the whole array at every point, whatever the array holds. -/
theorem read_whole11 (c : Dev nD) (t : Fin cfg0.N) (A : FVec Ideal Weights .f32) (u : S128x128.Idx) :
    ((cfg0.win 11).blk t).view.read (Elt Ideal) A u = A u := by
  obtain ⟨ea, eb⟩ := at_origin11 t
  show A (((cfg0.win 11).blk t).view.emb u) = A u
  refine congrArg A (funext fun a => Fin.ext ?_)
  match a with
  | ⟨0, _⟩ => show win0_11.index t (0 : Fin 2) * 128 + 1 * (u 0).val = (u 0).val; rw [ea]; omega
  | ⟨1, _⟩ => show win0_11.index t (1 : Fin 2) * 128 + 1 * (u 1).val = (u 1).val; rw [eb]; omega

/-- Window 12's block is the whole array at every point, whatever the array holds. -/
theorem read_whole12 (c : Dev nD) (t : Fin cfg0.N) (A : FVec Ideal BiasRow .f32) (u : S1x128.Idx) :
    ((cfg0.win 12).blk t).view.read (Elt Ideal) A u = A u := by
  obtain ⟨ea, eb⟩ := at_origin12 t
  show A (((cfg0.win 12).blk t).view.emb u) = A u
  refine congrArg A (funext fun a => Fin.ext ?_)
  match a with
  | ⟨0, _⟩ => show win0_12.index t (0 : Fin 2) * 1 + 1 * (u 0).val = (u 0).val; rw [ea]; omega
  | ⟨1, _⟩ => show win0_12.index t (1 : Fin 2) * 128 + 1 * (u 1).val = (u 1).val; rw [eb]; omega

/-- The result window's block read through: entry j of block t of any array is the array at the index j names. -/
theorem read_out (c : Dev nD) (t : Fin cfg0.N) (G : FVec Ideal Nodes .f32) (j : S2000x128.Idx) :
    ((cfg0.win 13).blk t).view.read (Elt Ideal) G j = G (((cfg0.win 13).blk t).view.emb j) := rfl

/-- … and that index is row 2000 t + j's row, j's column. -/
theorem out_row (t : Fin cfg0.N) (j : S2000x128.Idx) :
    ((((cfg0.win 13).blk t).view.emb j) 0).val = t.val * 2000 + (j 0).val := by
  obtain ⟨ea, eb⟩ := at_row13 t
  show win0_13.index t (0 : Fin 2) * 2000 + 1 * (j 0).val = t.val * 2000 + (j 0).val
  rw [ea]; omega
theorem out_col (t : Fin cfg0.N) (j : S2000x128.Idx) :
    ((((cfg0.win 13).blk t).view.emb j) 1).val = (j 1).val := by
  obtain ⟨ea, eb⟩ := at_row13 t
  show win0_13.index t (1 : Fin 2) * 128 + 1 * (j 1).val = (j 1).val
  rw [eb]; omega

/-! ## At the contents the region finds -/

variable (m : (ℓ : Loc nD τ sig) → Buf (Elt Ideal) ℓ)

theorem rows0 (c : Dev nD) (t : Fin cfg0.N) (u : S2000x128.Idx) (v : Nodes.Idx)
    (hv0 : (v 0).val = t.val * 2000 + (u 0).val) (hv1 : (v 1).val = (u 1).val) :
    iblk m c 0 t u = V m c main_arg0 v :=
  read_rows0 c t (V m c main_arg0) u v hv0 hv1

theorem rows1 (c : Dev nD) (t : Fin cfg0.N) (u : S2000x128.Idx) (v : Nodes.Idx)
    (hv0 : (v 0).val = t.val * 2000 + (u 0).val) (hv1 : (v 1).val = (u 1).val) :
    iblk m c 1 t u = V m c main_v21 v :=
  read_rows1 c t (V m c main_v21) u v hv0 hv1

theorem rows2 (c : Dev nD) (t : Fin cfg0.N) (u : S2000x128.Idx) (v : Nodes.Idx)
    (hv0 : (v 0).val = t.val * 2000 + (u 0).val) (hv1 : (v 1).val = (u 1).val) :
    iblk m c 2 t u = V m c main_v43 v :=
  read_rows2 c t (V m c main_v43) u v hv0 hv1

theorem rows3 (c : Dev nD) (t : Fin cfg0.N) (u : S2000x128.Idx) (v : Nodes.Idx)
    (hv0 : (v 0).val = t.val * 2000 + (u 0).val) (hv1 : (v 1).val = (u 1).val) :
    iblk m c 3 t u = V m c main_v65 v :=
  read_rows3 c t (V m c main_v65) u v hv0 hv1

theorem whole4 (c : Dev nD) (t : Fin cfg0.N) (u : S128x128.Idx) : iblk m c 4 t u = V m c main_arg10 u :=
  read_whole4 c t (V m c main_arg10) u

theorem whole5 (c : Dev nD) (t : Fin cfg0.N) (u : S128x128.Idx) : iblk m c 5 t u = V m c main_arg11 u :=
  read_whole5 c t (V m c main_arg11) u

theorem whole6 (c : Dev nD) (t : Fin cfg0.N) (u : S1x128.Idx) : iblk m c 6 t u = V m c main_v66 u :=
  read_whole6 c t (V m c main_v66) u

theorem whole7 (c : Dev nD) (t : Fin cfg0.N) (u : S128x128.Idx) : iblk m c 7 t u = V m c main_arg13 u :=
  read_whole7 c t (V m c main_arg13) u

theorem whole8 (c : Dev nD) (t : Fin cfg0.N) (u : S128x128.Idx) : iblk m c 8 t u = V m c main_arg14 u :=
  read_whole8 c t (V m c main_arg14) u

theorem whole9 (c : Dev nD) (t : Fin cfg0.N) (u : S1x128.Idx) : iblk m c 9 t u = V m c main_v67 u :=
  read_whole9 c t (V m c main_v67) u

theorem whole10 (c : Dev nD) (t : Fin cfg0.N) (u : S128x128.Idx) : iblk m c 10 t u = V m c main_arg16 u :=
  read_whole10 c t (V m c main_arg16) u

theorem whole11 (c : Dev nD) (t : Fin cfg0.N) (u : S128x128.Idx) : iblk m c 11 t u = V m c main_arg17 u :=
  read_whole11 c t (V m c main_arg17) u

theorem whole12 (c : Dev nD) (t : Fin cfg0.N) (u : S1x128.Idx) : iblk m c 12 t u = V m c main_v68 u :=
  read_whole12 c t (V m c main_v68) u

end Cert.RelationMean.Reads

end
-- ==== Proof.RowBlocks.lean ====
/-
  From blocks of rows to the whole array.

  The body runs once per block of 2000 rows, fifty times, and each run writes its block of the result back.  Block t
  of the node features and of the three neighbour aggregates is rows 2000 t … 2000 t + 1999 of those arrays; the weight
  matrices and the bias rows are the same whole arrays at every point.  So what run t writes back is rows
  2000 t … 2000 t + 1999 of ONE array-wide function — the mean of the three rectified layers of the arrays as the
  region finds them —, the fifty blocks cover every row (row r lies in block r / 2000), and the result array ends
  holding that function.
-/
import proofs.«151795_j57432302682299_1_alg».proof.Proof.Gen.KernelIdeal.Value
import proofs.«151795_j57432302682299_1_alg».proof.Proof.BlockMean
import proofs.«151795_j57432302682299_1_alg».proof.Proof.BlockReads
import proofs.«151795_j57432302682299_1_alg».proof.Proof.BlockIndex
import proofs.«151795_j57432302682299_1_alg».proof.Proof.RelationMean

set_option Elab.async false

noncomputable section

namespace Cert.RelationMean.Rows

open Cert.KernelIdeal Cert.KernelIdeal.Gen Idealize.ShloMosaic Idealize.ShloMosaic.TcCoe Idealize.SL.Sem
open Idealize.ShloMosaic.ValueIdx Cert.RelationMean Cert.RelationMean.Index Cert.RelationMean.Reads
open Idealize.ShloMosaic.Pipeline (Dat)

/-! ## What one run leaves for the result, over any blocks -/

theorem zero_offsets : (![0, 0] : Fin 2 → Nat) = fun _ => 0 := funext fun a => by fin_cases a <;> rfl

/-- The body stores once, the whole block; so whatever array-wide function G the stored value agrees with entry by
    entry, what the run leaves for the result is block t of G. -/
theorem stored_eq (t : Fin cfg0.N) (x0 x1 x2 x3 : Vec Ideal S2000x128 .f32) (x4 x5 : Vec Ideal S128x128 .f32)
    (x6 : Vec Ideal S1x128 .f32) (x7 x8 : Vec Ideal S128x128 .f32) (x9 : Vec Ideal S1x128 .f32)
    (x10 x11 : Vec Ideal S128x128 .f32) (x12 : Vec Ideal S1x128 .f32) (G : FVec Ideal Nodes .f32)
    (h : ∀ j : S2000x128.Idx, k0_pay1 (k0_pay2 x0) (k0_pay3 x2) (k0_pay4 x3) (k0_pay5 x7) (k0_pay6 x8) (k0_pay7 x10) (k0_pay8 x11) (k0_pay9 x6)
        (k0_pay10 x9) (k0_pay11 x12) (k0_pay12 x0 x4) (k0_pay13 x1 x5) j
          = G (((cfg0.win 13).blk t).view.emb j)) :
    (cfg0.win 13).cut (grid0.coords t) (out0_13 x0 x1 x2 x3 x4 x5 x6 x7 x8 x9 x10 x11 x12)
      = ((cfg0.win 13).blk t).view.read (Elt Ideal) G := by
  unfold out0_13
  rw [View.canon_unit_zero zero_offsets]
  simp only [View.ld_unit_zero (S := S2000x128) zero_offsets, View.ld_unit_zero (S := S128x128) zero_offsets,
    View.ld_unit_zero (S := S1x128) zero_offsets]
  funext j
  exact h j

/-! ## The pipeline's blocks -/

variable (m : (ℓ : Loc nD τ sig) → Buf (Elt Ideal) ℓ) (ρ : Dev nD → PrngReg)

/-- The array the result ends holding, from the arrays as the region finds them: the node features, the three
    neighbour aggregates the host computed, and each relation's two weight matrices and bias row. -/
def resultOf (c : Dev nD) : FVec Ideal Nodes .f32 :=
  mean3 (V m c main_arg0) (V m c main_v21) (V m c main_v43) (V m c main_v65)
    (V m c main_arg10) (V m c main_arg11) (rowOf (V m c main_v66))
    (V m c main_arg13) (V m c main_arg14) (rowOf (V m c main_v67))
    (V m c main_arg16) (V m c main_arg17) (rowOf (V m c main_v68))

theorem resultOf_def (c : Dev nD) : resultOf m c =
  mean3 (V m c main_arg0) (V m c main_v21) (V m c main_v43) (V m c main_v65)
    (V m c main_arg10) (V m c main_arg11) (rowOf (V m c main_v66))
    (V m c main_arg13) (V m c main_arg14) (rowOf (V m c main_v67))
    (V m c main_arg16) (V m c main_arg17) (rowOf (V m c main_v68)) := rfl

/-- What point t writes back is block t of `resultOf`. -/
theorem flushed_eq (c : Dev nD) (t : Fin cfg0.N) :
    (dats m 0 c).flushed 13 t = ((cfg0.win 13).blk t).view.read (Elt Ideal) (resultOf m c) :=
  (Cert.KernelIdeal.Value.flushed13 m c t).trans
    (stored_eq t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (resultOf m c) fun j =>
      (block_eq (V m c main_arg0) (V m c main_v21) (V m c main_v43) (V m c main_v65)
        (V m c main_arg10) (V m c main_arg11) (V m c main_arg13) (V m c main_arg14) (V m c main_arg16) (V m c main_arg17)
        (V m c main_v66) (V m c main_v67) (V m c main_v68)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
        t.val j (((cfg0.win 13).blk t).view.emb j) (out_row t j) (out_col t j)
        (rows0 m c t) (rows1 m c t) (rows2 m c t) (rows3 m c t)
        (whole4 m c t) (whole5 m c t) (whole6 m c t) (whole7 m c t) (whole8 m c t) (whole9 m c t)
        (whole10 m c t) (whole11 m c t) (whole12 m c t)).trans
      (congrFun (resultOf_def m c).symm (((cfg0.win 13).blk t).view.emb j)))

/-! ## The fifty blocks cover the array -/

/-- An index of the result array is in point t's block iff each coordinate is in the block's range on its axis. -/
theorem mem_blk (t : Fin cfg0.N) (i : S100000x128.Idx) :
    i ∈ ((cfg0.win 13).blk t).view.set ↔ ∀ a : Fin 2, win0_13.index t a * S2000x128.size a ≤ (i a).val
      ∧ (i a).val < win0_13.index t a * S2000x128.size a + S2000x128.size a := by
  show i ∈ ((View.whole main_v69).slice (win0_13.rect t)).set ↔ _
  rw [View.set_slice_whole, Rect.mem_set_unit]
  exact Iff.rfl

/-- Every index of the result array is in some point's block: row r is in block r / 2000. -/
theorem covered (i : S100000x128.Idx) :
    ∃ t : Fin cfg0.N, (cfg0.win 13).flush t = true ∧ i ∈ ((cfg0.win 13).blk t).view.set := by
  have hi0 : (i 0).val < 100000 := (i 0).isLt
  have hi1 : (i 1).val < 128 := (i 1).isLt
  have hlt : (i 0).val / 2000 < grid0.N := by rw [N_0]; omega
  have ht : (⟨(i 0).val / 2000, hlt⟩ : Fin cfg0.N).val = (i 0).val / 2000 := rfl
  obtain ⟨oa, ob⟩ := at_row13 ⟨(i 0).val / 2000, hlt⟩
  refine ⟨⟨(i 0).val / 2000, hlt⟩, flush0_13 _, ?_⟩
  rw [mem_blk]
  intro a
  match a with
  | ⟨0, _⟩ =>
    show win0_13.index ⟨(i 0).val / 2000, hlt⟩ (0 : Fin 2) * 2000 ≤ (i 0).val
      ∧ (i 0).val < win0_13.index ⟨(i 0).val / 2000, hlt⟩ (0 : Fin 2) * 2000 + 2000
    rw [oa, ht]; omega
  | ⟨1, _⟩ =>
    show win0_13.index ⟨(i 0).val / 2000, hlt⟩ (1 : Fin 2) * 128 ≤ (i 1).val
      ∧ (i 1).val < win0_13.index ⟨(i 0).val / 2000, hlt⟩ (1 : Fin 2) * 128 + 128
    rw [ob]; omega

/-! ## The result array, and the run -/

/-- The result array after the run is `resultOf`. -/
theorem final (c : Dev nD) : (dats m 0 c).arrAt 13 cfg0.N = resultOf m c :=
  (dats m 0 c).arrAt_eq_of_cover 13 (resultOf m c) (fun t _ => flushed_eq m c t) covered

/-- Every weakly fair run ends with the result array at `resultOf` and the arguments as launched. -/
theorem run : θ_run defs (onTc (τ := τ) (main (F := Ideal))) ⟨m, fun _ => 0, ρ⟩ fun r => ∀ c : Dev nD,
      r.2.mem ((c : Thread nD τ).loc main_v69) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final m c), (h c).2⟩) (Cert.KernelIdeal.Value.run_blocks m ρ)

end Cert.RelationMean.Rows

end
-- ==== Proof.HostSide.lean ====
/-
  What the region finds in the arrays the host prepared, in terms of the arguments.

  Before the region the host gathers, for each relation, every edge's source-node features, weights them, adds them
  into the edge's destination node and divides by the node's in-degree (at least one): the relation's aggregated
  neighbour features.  The plain program computes the same three arrays by the same operations on the same
  arguments; here each is identified with the plain program's own stage, as one term that is never opened.  The host
  also lays each bias out as a row; read back as a vector it is the bias itself.  With those, the array the result
  ends holding is the mean of the three rectified layers of the arguments.
-/
import proofs.«151795_j57432302682299_1_alg».proof.Proof.Gen.KernelIdeal.Frame
import proofs.«151795_j57432302682299_1_alg».proof.Proof.Gen.ReferenceIdeal.Read
import proofs.«151795_j57432302682299_1_alg».proof.Proof.RelationMean
import proofs.«151795_j57432302682299_1_alg».proof.Proof.RowBlocks
import Idealize.ShloMosaic.Lib.StableHlo.Run
import Idealize.ShloMosaic.Lib.ValueLayout

noncomputable section

namespace Cert.RelationMean.Host

open Cert.KernelIdeal Cert.KernelIdeal.Gen Idealize.ShloMosaic Idealize.ShloMosaic.TcCoe Idealize.SL.Sem Idealize.ShloMosaic.StableHlo
open Idealize.ShloMosaic.ValueIdx Cert.RelationMean

variable (m : (ℓ : Loc nD τ sig) → Buf (Elt Ideal) ℓ)

/-! ## The three aggregated neighbour features -/

set_option maxRecDepth 8192 in
set_option maxHeartbeats 8000000 in
/-- Relation 0's aggregate as the region finds it is the plain program's aggregate of the same arguments. -/
theorem nbr0 (c : Dev nD) :
    (V m c main_v21 : S100000x128.Idx → EReal)
      = Cert.ReferenceIdeal.Read.val_main_v21 (F := Ideal) (m ((c : Thread nD τ).loc main_arg0)) (m ((c : Thread nD τ).loc main_arg1)) (m ((c : Thread nD τ).loc main_arg2)) (m ((c : Thread nD τ).loc main_arg3)) := by
  show StableHlo.after hostOps0 (fun b => m (c, b)) (Proc.devRef .tc main_v21) = _
  unfold hostOps0
  after_results_simp
  rfl

set_option maxRecDepth 8192 in
set_option maxHeartbeats 8000000 in
/-- Relation 1's likewise. -/
theorem nbr1 (c : Dev nD) :
    (V m c main_v43 : S100000x128.Idx → EReal)
      = Cert.ReferenceIdeal.Read.val_main_v50 (F := Ideal) (m ((c : Thread nD τ).loc main_arg0)) (m ((c : Thread nD τ).loc main_arg4)) (m ((c : Thread nD τ).loc main_arg5)) (m ((c : Thread nD τ).loc main_arg6)) := by
  show StableHlo.after hostOps0 (fun b => m (c, b)) (Proc.devRef .tc main_v43) = _
  unfold hostOps0
  after_results_simp
  rfl

set_option maxRecDepth 8192 in
set_option maxHeartbeats 8000000 in
/-- Relation 2's likewise. -/
theorem nbr2 (c : Dev nD) :
    (V m c main_v65 : S100000x128.Idx → EReal)
      = Cert.ReferenceIdeal.Read.val_main_v79 (F := Ideal) (m ((c : Thread nD τ).loc main_arg0)) (m ((c : Thread nD τ).loc main_arg7)) (m ((c : Thread nD τ).loc main_arg8)) (m ((c : Thread nD τ).loc main_arg9)) := by
  show StableHlo.after hostOps0 (fun b => m (c, b)) (Proc.devRef .tc main_v65) = _
  unfold hostOps0
  after_results_simp
  rfl

/-! ## The three bias rows -/

/-- A vector laid out as one row and read back as a vector is the vector. -/
theorem rowOf_row (b : FVec Ideal Bias .f32) (h : Bias.ShapeCasts BiasRow) : rowOf (shapeCast BiasRow b h) = b := by
  funext j
  obtain ⟨q, rfl⟩ : ∃ q : Fin 128, j = ix1 q := ⟨j 0, eq_ix1 j⟩
  exact shapeCast_a_1a_apply b h 0 q

set_option maxRecDepth 8192 in
set_option maxHeartbeats 8000000 in
/-- Relation 0's bias row as the region finds it, read back as a vector, is the bias argument. -/
theorem bias0 (c : Dev nD) : rowOf (V m c main_v66) = (m ((c : Thread nD τ).loc main_arg12)) := by
  have e : (V m c main_v66 : S1x128.Idx → EReal) = shapeCast S1x128 (m ((c : Thread nD τ).loc main_arg12)) shapeCasts_S128_S1x128 := by
    show StableHlo.after hostOps0 (fun b => m (c, b)) (Proc.devRef .tc main_v66) = _
    unfold hostOps0
    after_results_simp
    rfl
  rw [e]
  exact rowOf_row _ _

set_option maxRecDepth 8192 in
set_option maxHeartbeats 8000000 in
/-- Relation 1's bias row as the region finds it, read back as a vector, is the bias argument. -/
theorem bias1 (c : Dev nD) : rowOf (V m c main_v67) = (m ((c : Thread nD τ).loc main_arg15)) := by
  have e : (V m c main_v67 : S1x128.Idx → EReal) = shapeCast S1x128 (m ((c : Thread nD τ).loc main_arg15)) shapeCasts_S128_S1x128 := by
    show StableHlo.after hostOps0 (fun b => m (c, b)) (Proc.devRef .tc main_v67) = _
    unfold hostOps0
    after_results_simp
    rfl
  rw [e]
  exact rowOf_row _ _

set_option maxRecDepth 8192 in
set_option maxHeartbeats 8000000 in
/-- Relation 2's bias row as the region finds it, read back as a vector, is the bias argument. -/
theorem bias2 (c : Dev nD) : rowOf (V m c main_v68) = (m ((c : Thread nD τ).loc main_arg18)) := by
  have e : (V m c main_v68 : S1x128.Idx → EReal) = shapeCast S1x128 (m ((c : Thread nD τ).loc main_arg18)) shapeCasts_S128_S1x128 := by
    show StableHlo.after hostOps0 (fun b => m (c, b)) (Proc.devRef .tc main_v68) = _
    unfold hostOps0
    after_results_simp
    rfl
  rw [e]
  exact rowOf_row _ _

/-! ## The result in terms of the arguments -/

/-- The mean of the three layers depends only on its thirteen arrays. -/
theorem mean3_congr {x x' h0 h0' h1 h1' h2 h2' : FVec Ideal Nodes .f32}
    {ws0 ws0' wn0 wn0' ws1 ws1' wn1 wn1' ws2 ws2' wn2 wn2' : FVec Ideal Weights .f32} {b0 b0' b1 b1' b2 b2' : FVec Ideal Bias .f32}
    (ex : x = x') (e0 : h0 = h0') (e1 : h1 = h1') (e2 : h2 = h2')
    (es0 : ws0 = ws0') (en0 : wn0 = wn0') (eb0 : b0 = b0')
    (es1 : ws1 = ws1') (en1 : wn1 = wn1') (eb1 : b1 = b1')
    (es2 : ws2 = ws2') (en2 : wn2 = wn2') (eb2 : b2 = b2') :
    mean3 x h0 h1 h2 ws0 wn0 b0 ws1 wn1 b1 ws2 wn2 b2 = mean3 x' h0' h1' h2' ws0' wn0' b0' ws1' wn1' b1' ws2' wn2' b2' := by
  subst ex e0 e1 e2 es0 en0 eb0 es1 en1 eb1 es2 en2 eb2
  rfl

/-- The array the result ends holding is the mean of the three rectified layers of the arguments, each relation's
    neighbour features being the plain program's own aggregate of the arguments. -/
theorem result_eq (c : Dev nD) :
    Rows.resultOf m c
      = mean3 (m ((c : Thread nD τ).loc main_arg0))
          (Cert.ReferenceIdeal.Read.val_main_v21 (F := Ideal) (m ((c : Thread nD τ).loc main_arg0)) (m ((c : Thread nD τ).loc main_arg1)) (m ((c : Thread nD τ).loc main_arg2)) (m ((c : Thread nD τ).loc main_arg3)))
          (Cert.ReferenceIdeal.Read.val_main_v50 (F := Ideal) (m ((c : Thread nD τ).loc main_arg0)) (m ((c : Thread nD τ).loc main_arg4)) (m ((c : Thread nD τ).loc main_arg5)) (m ((c : Thread nD τ).loc main_arg6)))
          (Cert.ReferenceIdeal.Read.val_main_v79 (F := Ideal) (m ((c : Thread nD τ).loc main_arg0)) (m ((c : Thread nD τ).loc main_arg7)) (m ((c : Thread nD τ).loc main_arg8)) (m ((c : Thread nD τ).loc main_arg9)))
          (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  mean3_congr (V_main_arg0 m c) (nbr0 m c) (nbr1 m c) (nbr2 m c)
    (V_main_arg10 m c) (V_main_arg11 m c) (bias0 m c)
    (V_main_arg13 m c) (V_main_arg14 m c) (bias1 m c)
    (V_main_arg16 m c) (V_main_arg17 m c) (bias2 m c)

end Cert.RelationMean.Host

end
-- ==== Proof.Words.lean ====
/-
  The float words the two programs spell beside the named one third, as the extended reals they denote:
  the word of 3.0 (the divisor of the average as the plain program writes it).
-/
import Idealize.ShloMosaic.PureOps.Ideal

noncomputable section

namespace Cert.RelationMean.Words

open Idealize.ShloMosaic

/-- The 32-bit word 0x40400000 denotes the real number 3. -/
theorem ofBits_three : Ideal.ofBits .f32 0x40400000#32 = ((3 : ℝ) : EReal) := by
  simp [Ideal.ofBits, Ideal.ieee, -EReal.coe_mul]; norm_num

end Cert.RelationMean.Words

end
-- ==== Proof.PlainValue.lean ====
/-
  The plain program's result, entry by entry: it is the mean of the three relations' rectified dense layers.

  For each relation the plain program multiplies the node features by the relation's first weight matrix and the
  relation's aggregated neighbour features by the second, adds the two products and the bias (laid as a row and
  repeated down the rows), and takes the maximum with zero; it adds the three results and divides by 3.  Read at
  entry (p, q), each matrix product is the sum over k of row p of the left factor against column q of the right
  one, and dividing by 3 is multiplying by 1/3 on every extended real.  The aggregated neighbour features are
  left as the stages that compute them: nothing here looks inside them.
-/
import proofs.«151795_j57432302682299_1_alg».proof.Proof.Gen.ReferenceIdeal.Read
import proofs.«151795_j57432302682299_1_alg».proof.Proof.RelationMean
import proofs.«151795_j57432302682299_1_alg».proof.Proof.Words

noncomputable section

namespace Cert.RelationMean.Plain

open Idealize.ShloMosaic Idealize.ShloMosaic.ValueIdx Cert.ReferenceIdeal Cert.ReferenceIdeal.Read Cert.RelationMean

/-! ## Relation 0 -/

/-- In relation 0's first product the left factor is read at (p, k) and the right factor at (k, q). -/
theorem own_left0 (p : Fin 100000) (q k : Fin 128) : lidx_main_v22 (ix2 p q) k = ix2 p k :=
  funext fun a => Fin.ext (by match a with | ⟨0, _⟩ => rfl | ⟨1, _⟩ => rfl)
theorem own_right0 (p : Fin 100000) (q k : Fin 128) : ridx_main_v22 (ix2 p q) k = ix2 k q :=
  funext fun a => Fin.ext (by match a with | ⟨0, _⟩ => rfl | ⟨1, _⟩ => rfl)
/-- … and the same in its second product. -/
theorem nbr_left0 (p : Fin 100000) (q k : Fin 128) : lidx_main_v23 (ix2 p q) k = ix2 p k :=
  funext fun a => Fin.ext (by match a with | ⟨0, _⟩ => rfl | ⟨1, _⟩ => rfl)
theorem nbr_right0 (p : Fin 100000) (q k : Fin 128) : ridx_main_v23 (ix2 p q) k = ix2 k q :=
  funext fun a => Fin.ext (by match a with | ⟨0, _⟩ => rfl | ⟨1, _⟩ => rfl)
/-- The bias laid as a row and repeated down the rows is read, at (p, q), at q. -/
theorem bias_at0 (p : Fin 100000) (q : Fin 128) : idx_main_v25 (idx_main_v26 (ix2 p q)) = ix1 q :=
  funext fun a => Fin.ext (by match a with | ⟨0, _⟩ => rfl)

/-- Relation 0's rectified layer as the plain program computes it, at entry (p, q). -/
theorem layer0_apply (x0 : (⟨S100000x128, .f32⟩ : BufTy).Contents (Elt Ideal)) (x1 x2 : (⟨S1600000, .i32⟩ : BufTy).Contents (Elt Ideal)) (x3 : (⟨S1600000, .f32⟩ : BufTy).Contents (Elt Ideal))
    (x10 x11 : (⟨S128x128, .f32⟩ : BufTy).Contents (Elt Ideal)) (x12 : (⟨S128, .f32⟩ : BufTy).Contents (Elt Ideal)) (p : Fin 100000) (q : Fin 128) :
    val_main_v28 (F := Ideal) x0 x1 x2 x3 x10 x11 x12 (ix2 p q)
      = layer x0 (val_main_v21 (F := Ideal) x0 x1 x2 x3) x10 x11 x12 p q := by
  rw [val_main_v28_apply, val_main_v27_apply, val_main_v24_apply, val_main_v22_apply, val_main_v23_apply,
    val_main_v26_apply, val_main_v25_apply, val_main_call0_v0_apply, val_main_call0_cst_apply]
  exact congrArg₂ (max : EReal → EReal → EReal)
    (congrArg₂ (fun a b : EReal => a + b)
      (congrArg₂ (fun a b : EReal => a + b)
        (Finset.sum_congr rfl fun k _ => congrArg₂ (fun a b : EReal => a * b)
          (congrArg x0 (own_left0 p q k)) (congrArg x10 (own_right0 p q k)))
        (Finset.sum_congr rfl fun k _ => congrArg₂ (fun a b : EReal => a * b)
          (congrArg (val_main_v21 (F := Ideal) x0 x1 x2 x3) (nbr_left0 p q k)) (congrArg x11 (nbr_right0 p q k))))
      (congrArg x12 (bias_at0 p q)))
    Ideal.ofBits_zero_f32

/-! ## Relation 1 -/

/-- In relation 1's first product the left factor is read at (p, k) and the right factor at (k, q). -/
theorem own_left1 (p : Fin 100000) (q k : Fin 128) : lidx_main_v51 (ix2 p q) k = ix2 p k :=
  funext fun a => Fin.ext (by match a with | ⟨0, _⟩ => rfl | ⟨1, _⟩ => rfl)
theorem own_right1 (p : Fin 100000) (q k : Fin 128) : ridx_main_v51 (ix2 p q) k = ix2 k q :=
  funext fun a => Fin.ext (by match a with | ⟨0, _⟩ => rfl | ⟨1, _⟩ => rfl)
/-- … and the same in its second product. -/
theorem nbr_left1 (p : Fin 100000) (q k : Fin 128) : lidx_main_v52 (ix2 p q) k = ix2 p k :=
  funext fun a => Fin.ext (by match a with | ⟨0, _⟩ => rfl | ⟨1, _⟩ => rfl)
theorem nbr_right1 (p : Fin 100000) (q k : Fin 128) : ridx_main_v52 (ix2 p q) k = ix2 k q :=
  funext fun a => Fin.ext (by match a with | ⟨0, _⟩ => rfl | ⟨1, _⟩ => rfl)
/-- The bias laid as a row and repeated down the rows is read, at (p, q), at q. -/
theorem bias_at1 (p : Fin 100000) (q : Fin 128) : idx_main_v54 (idx_main_v55 (ix2 p q)) = ix1 q :=
  funext fun a => Fin.ext (by match a with | ⟨0, _⟩ => rfl)

/-- Relation 1's rectified layer as the plain program computes it, at entry (p, q). -/
theorem layer1_apply (x0 : (⟨S100000x128, .f32⟩ : BufTy).Contents (Elt Ideal)) (x4 x5 : (⟨S1600000, .i32⟩ : BufTy).Contents (Elt Ideal)) (x6 : (⟨S1600000, .f32⟩ : BufTy).Contents (Elt Ideal))
    (x13 x14 : (⟨S128x128, .f32⟩ : BufTy).Contents (Elt Ideal)) (x15 : (⟨S128, .f32⟩ : BufTy).Contents (Elt Ideal)) (p : Fin 100000) (q : Fin 128) :
    val_main_v57 (F := Ideal) x0 x4 x5 x6 x13 x14 x15 (ix2 p q)
      = layer x0 (val_main_v50 (F := Ideal) x0 x4 x5 x6) x13 x14 x15 p q := by
  rw [val_main_v57_apply, val_main_v56_apply, val_main_v53_apply, val_main_v51_apply, val_main_v52_apply,
    val_main_v55_apply, val_main_v54_apply, val_main_call1_v0_apply, val_main_call1_cst_apply]
  exact congrArg₂ (max : EReal → EReal → EReal)
    (congrArg₂ (fun a b : EReal => a + b)
      (congrArg₂ (fun a b : EReal => a + b)
        (Finset.sum_congr rfl fun k _ => congrArg₂ (fun a b : EReal => a * b)
          (congrArg x0 (own_left1 p q k)) (congrArg x13 (own_right1 p q k)))
        (Finset.sum_congr rfl fun k _ => congrArg₂ (fun a b : EReal => a * b)
          (congrArg (val_main_v50 (F := Ideal) x0 x4 x5 x6) (nbr_left1 p q k)) (congrArg x14 (nbr_right1 p q k))))
      (congrArg x15 (bias_at1 p q)))
    Ideal.ofBits_zero_f32

/-! ## Relation 2 -/

/-- In relation 2's first product the left factor is read at (p, k) and the right factor at (k, q). -/
theorem own_left2 (p : Fin 100000) (q k : Fin 128) : lidx_main_v80 (ix2 p q) k = ix2 p k :=
  funext fun a => Fin.ext (by match a with | ⟨0, _⟩ => rfl | ⟨1, _⟩ => rfl)
theorem own_right2 (p : Fin 100000) (q k : Fin 128) : ridx_main_v80 (ix2 p q) k = ix2 k q :=
  funext fun a => Fin.ext (by match a with | ⟨0, _⟩ => rfl | ⟨1, _⟩ => rfl)
/-- … and the same in its second product. -/
theorem nbr_left2 (p : Fin 100000) (q k : Fin 128) : lidx_main_v81 (ix2 p q) k = ix2 p k :=
  funext fun a => Fin.ext (by match a with | ⟨0, _⟩ => rfl | ⟨1, _⟩ => rfl)
theorem nbr_right2 (p : Fin 100000) (q k : Fin 128) : ridx_main_v81 (ix2 p q) k = ix2 k q :=
  funext fun a => Fin.ext (by match a with | ⟨0, _⟩ => rfl | ⟨1, _⟩ => rfl)
/-- The bias laid as a row and repeated down the rows is read, at (p, q), at q. -/
theorem bias_at2 (p : Fin 100000) (q : Fin 128) : idx_main_v83 (idx_main_v84 (ix2 p q)) = ix1 q :=
  funext fun a => Fin.ext (by match a with | ⟨0, _⟩ => rfl)

/-- Relation 2's rectified layer as the plain program computes it, at entry (p, q). -/
theorem layer2_apply (x0 : (⟨S100000x128, .f32⟩ : BufTy).Contents (Elt Ideal)) (x7 x8 : (⟨S1600000, .i32⟩ : BufTy).Contents (Elt Ideal)) (x9 : (⟨S1600000, .f32⟩ : BufTy).Contents (Elt Ideal))
    (x16 x17 : (⟨S128x128, .f32⟩ : BufTy).Contents (Elt Ideal)) (x18 : (⟨S128, .f32⟩ : BufTy).Contents (Elt Ideal)) (p : Fin 100000) (q : Fin 128) :
    val_main_v86 (F := Ideal) x0 x7 x8 x9 x16 x17 x18 (ix2 p q)
      = layer x0 (val_main_v79 (F := Ideal) x0 x7 x8 x9) x16 x17 x18 p q := by
  rw [val_main_v86_apply, val_main_v85_apply, val_main_v82_apply, val_main_v80_apply, val_main_v81_apply,
    val_main_v84_apply, val_main_v83_apply, val_main_call2_v0_apply, val_main_call2_cst_apply]
  exact congrArg₂ (max : EReal → EReal → EReal)
    (congrArg₂ (fun a b : EReal => a + b)
      (congrArg₂ (fun a b : EReal => a + b)
        (Finset.sum_congr rfl fun k _ => congrArg₂ (fun a b : EReal => a * b)
          (congrArg x0 (own_left2 p q k)) (congrArg x16 (own_right2 p q k)))
        (Finset.sum_congr rfl fun k _ => congrArg₂ (fun a b : EReal => a * b)
          (congrArg (val_main_v79 (F := Ideal) x0 x7 x8 x9) (nbr_left2 p q k)) (congrArg x17 (nbr_right2 p q k))))
      (congrArg x18 (bias_at2 p q)))
    Ideal.ofBits_zero_f32

/-! ## The three together -/

/-- The plain program's result is the mean of the three rectified layers, the aggregated neighbour features being
    the stages that compute them. -/
theorem result_eq (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 x5 : (⟨S1600000, .i32⟩ : BufTy).Contents (Elt Ideal)) (x6 : (⟨S1600000, .f32⟩ : BufTy).Contents (Elt Ideal)) (x7 x8 : (⟨S1600000, .i32⟩ : BufTy).Contents (Elt Ideal)) (x9 : (⟨S1600000, .f32⟩ : BufTy).Contents (Elt Ideal))
    (x10 x11 : (⟨S128x128, .f32⟩ : BufTy).Contents (Elt Ideal)) (x12 : (⟨S128, .f32⟩ : BufTy).Contents (Elt Ideal)) (x13 x14 : (⟨S128x128, .f32⟩ : BufTy).Contents (Elt Ideal)) (x15 : (⟨S128, .f32⟩ : BufTy).Contents (Elt Ideal)) (x16 x17 : (⟨S128x128, .f32⟩ : BufTy).Contents (Elt Ideal)) (x18 : (⟨S128, .f32⟩ : BufTy).Contents (Elt Ideal)) :
    val_main_v90 (F := Ideal) x0 x1 x2 x3 x4 x5 x6 x7 x8 x9 x10 x11 x12 x13 x14 x15 x16 x17 x18
      = mean3 x0 (val_main_v21 (F := Ideal) x0 x1 x2 x3) (val_main_v50 (F := Ideal) x0 x4 x5 x6) (val_main_v79 (F := Ideal) x0 x7 x8 x9)
          x10 x11 x12 x13 x14 x15 x16 x17 x18 := by
  funext i
  obtain ⟨p, q, rfl⟩ : ∃ (p : Fin 100000) (q : Fin 128), i = ix2 p q := ⟨i 0, i 1, eq_ix2 i⟩
  rw [val_main_v90_apply, val_main_v88_apply, val_main_v87_apply, layer0_apply, layer1_apply, layer2_apply,
    val_main_v89_apply, val_main_cst_16_apply]
  exact (congrArg (Ideal.div _) Words.ofBits_three).trans (div_three _)

end Cert.RelationMean.Plain

end
-- ==== Proof.lean ====
/-
  A graph layer with three relations, computed two ways, gives one result on the extended reals.

  For each relation r the node features x go through a matrix Ws_r, the relation's aggregated neighbour features h_r
  (each node's weighted sum of its in-neighbours' features, divided by its in-degree, at least one) through a matrix
  Wn_r, a bias b_r is added and the result rectified; the three results are averaged.  One program does the dense part
  block by block, 2000 rows at a time, from operands rounded to a narrower float format, and multiplies the sum by the
  constant one third; the other does it on whole arrays and divides by 3.  At the ideal values rounding changes
  nothing, a matrix product is the same sum of 128 products however it is tiled, and dividing by 3 is multiplying by
  1/3 on every extended real — so at every entry (p, q) both are

      ( sum over r of  max( sum_k x[p,k] Ws_r[k,q] + sum_k h_r[p,k] Wn_r[k,q] + b_r[q] , 0 ) ) * (1/3),

  the three terms added in the same order.  The neighbour features are computed by the same operations of the same
  arguments in both programs and are carried as one term throughout; no fact about the inputs' finiteness is used.

  The modules: RelationMean (the mean of the three layers, entry by entry), BlockValue and BlockMean (one block of the
  blocked program), BlockIndex and BlockReads (where each block sits in its array), RowBlocks (the fifty blocks cover
  the result), HostSide (the arrays the blocked program's host part prepares), PlainValue (the whole-array program).
-/
import proofs.«151795_j57432302682299_1_alg».proof.Defs
import proofs.«151795_j57432302682299_1_alg».proof.Proof.Gen.Kernel
import proofs.«151795_j57432302682299_1_alg».proof.Proof.Gen.Kernel.Skeleton
import proofs.«151795_j57432302682299_1_alg».proof.Proof.Gen.Kernel.Launch
import proofs.«151795_j57432302682299_1_alg».proof.Proof.Gen.Kernel.Points
import proofs.«151795_j57432302682299_1_alg».proof.Proof.Gen.Kernel.Frame
import proofs.«151795_j57432302682299_1_alg».proof.Proof.Gen.KernelIdeal
import proofs.«151795_j57432302682299_1_alg».proof.Proof.Gen.KernelIdeal.Skeleton
import proofs.«151795_j57432302682299_1_alg».proof.Proof.Gen.KernelIdeal.Launch
import proofs.«151795_j57432302682299_1_alg».proof.Proof.Gen.KernelIdeal.Points
import proofs.«151795_j57432302682299_1_alg».proof.Proof.Gen.KernelIdeal.Frame
import proofs.«151795_j57432302682299_1_alg».proof.Proof.Gen.ReferenceIdeal
import proofs.«151795_j57432302682299_1_alg».proof.Proof.Gen.Pre_finite_inputs
import proofs.«151795_j57432302682299_1_alg».proof.Proof.Gen.KernelIdeal.Value
import proofs.«151795_j57432302682299_1_alg».proof.Proof.Gen.ReferenceIdeal.Run
import proofs.«151795_j57432302682299_1_alg».proof.Proof.Gen.ReferenceIdeal.Read
import proofs.«151795_j57432302682299_1_alg».proof.Proof.RowBlocks
import proofs.«151795_j57432302682299_1_alg».proof.Proof.HostSide
import proofs.«151795_j57432302682299_1_alg».proof.Proof.PlainValue
import Idealize.ShloMosaic.Adequacy
import Idealize.ShloMosaic.Init

noncomputable section

namespace Cert.Proof

open Idealize.ShloMosaic Idealize.ShloMosaic.TcCoe Idealize.SL.Sem

/-- The blocked program as printed runs to the end without a fault and leaves its arguments as they were. -/
theorem frame_blocked : Cert.frame_Kernel := fun m ρ _ => Cert.Kernel.Gen.frame m ρ

/-- So does its reading at the ideal values. -/
theorem frame_blocked_ideal : Cert.frame_KernelIdeal := fun m ρ _ => Cert.KernelIdeal.Gen.frame m ρ

/-- So does the whole-array program: its run, with what it says of the result dropped. -/
theorem frame_plain : Cert.frame_ReferenceIdeal := fun m ρ _ =>
  (θ_run Cert.ReferenceIdeal.defs _ _).mono (fun _ h c => (h c).2) (Cert.ReferenceIdeal.Value.run (F := Ideal) m ρ)

/-- The one constant read as an exact fraction: the word of one third is named, and the name denotes 1/3. -/
theorem preserves : Cert.preserves_Kernel_KernelIdeal :=
  IdealRules.named_const.statement Cert.KernelIdeal.κ "inv_3" .f32 0x3EAAAAAB#32 ((1 / 3 : ℝ) : EReal) rfl

/-- From arguments that agree, both programs end with the mean of the three rectified layers of those arguments. -/
theorem algebraic : Cert.algebraic_KernelIdeal_ReferenceIdeal := by
  intro m ρ m' ρ' _ hagree
  refine ⟨Cert.RelationMean.Rows.resultOf m, Cert.RelationMean.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18⟩ := hagree c
  rw [Cert.ReferenceIdeal.Read.val_main_v90_eq, Cert.RelationMean.Plain.result_eq, Cert.RelationMean.Host.result_eq,
    a0, a1, a2, a3, a4, a5, a6, a7, a8, a9, a10, a11, a12, a13, a14, a15, a16, a17, a18]

theorem claim : Cert.Claim := ⟨Cert.Kernel.Gen.facts, Cert.KernelIdeal.Gen.facts, Cert.ReferenceIdeal.Gen.facts, Cert.Pre_finite_inputs.Gen.facts,
  frame_blocked, frame_blocked_ideal, frame_plain, preserves, algebraic⟩

end Cert.Proof

end
